-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1280000x128 : Shape := ⟨2, ![1280000, 128]⟩
abbrev S1280000 : Shape := ⟨1, ![1280000]⟩
abbrev S1280000x1 : Shape := ⟨2, ![1280000, 1]⟩
abbrev S1x128 : Shape := ⟨2, ![1, 128]⟩
abbrev S5000x128 : Shape := ⟨2, ![5000, 128]⟩

abbrev nBuf : Space → Nat
  | .hbm => 79
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S1280000x128, .f32⟩
  | .hbm, ⟨71, _⟩ => ⟨S1280000, .i32⟩
  | .hbm, ⟨72, _⟩ => ⟨S_, .f32⟩
  | .hbm, ⟨73, _⟩ => ⟨S100000x128, .f32⟩
  | .hbm, ⟨74, _⟩ => ⟨S1280000x1, .i32⟩
  | .hbm, ⟨75, _⟩ => ⟨S100000x128, .f32⟩
  | .hbm, ⟨76, _⟩ => ⟨S128x128, .f32⟩
  | .hbm, ⟨77, _⟩ => ⟨S1x128, .f32⟩
  | .hbm, ⟨78, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  concatenates_S640000x128_S640000x128_S1280000x128_d0 : Shape.Concatenates [S640000x128, S640000x128] S1280000x128 0
  concatenates_S640000_S640000_S1280000_d0 : Shape.Concatenates [S640000, S640000] S1280000 0
  bcast_S_S100000x128 : S_.BroadcastsInDim S100000x128 (![] : Fin 0 → Fin S100000x128.rank)
  bcast_S1280000_S1280000x1_0 : S1280000.BroadcastsInDim S1280000x1 (![0] : Fin 1 → Fin S1280000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S1280000x1_S1280000x128_1_0_0_1_wf : ScatterDims.WF S100000x128 S1280000x1 S1280000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S100000x128, .f32⟩
  | .hbm, ⟨72, _⟩ => ⟨S640000x1, .i32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S640000x1, .i32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  THE KERNEL BODY'S STORED BLOCK, element by element. At a grid point the body loads a `[5000, 128]` block of node features and
  the same block of aggregated messages, the whole `[128, 128]` transposed weights and the `[1, 128]` bias, and stores
  `max ((x + agg) · Wᵀ + b) 0`. Read at row `p`, column `q` of the block that is a sum over the 128 input features of row `p`
  of `x + agg` against column `q` of the weight block, plus the bias at `q`, clamped at zero; the roundings to bf16 on the way
  into the product are the identity on extended reals.
-/
import proofs.«149796_j39195871543809_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx

/-- The bias row `[1, 128]` broadcast over the block's rows, read at `(p, q)`: the bias at column `q`. -/
theorem bias_bcast_apply (x3 : FVec Ideal S1x128 .f32) (p : Fin 5000) (q : Fin 128) :
    broadcastTo S5000x128 (shapeCast S1x128 x3 shapeCasts_S1x128_S1x128) broadcasts_S1x128_S5000x128 (ix2 p q)
      = x3 (ix2 (0 : Fin 1) q) := by
  rw [shapeCast_self]
  exact broadcastTo_apply x3 broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The block's matrix product read at `(p, q)`: row `p` of the left block against column `q` of the right one, a sum
    over the 128 contracted positions. -/
theorem matmul_block_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
  rw [el, er]

/-- THE BODY'S STORED VALUE AT `(p, q)` of the block: the sum of the two loaded blocks' rows `p`, multiplied into column `q` of
    the weight block, plus the bias at `q`, clamped below at zero (the format changes are the identity on extended reals). -/
theorem payload_apply (x0 x1 : FVec Ideal S5000x128 .f32) (x2 : FVec Ideal S128x128 .f32) (x3 : FVec Ideal S1x128 .f32)
    (p : Fin 5000) (q : Fin 128) :
    k0_pay1 x0 x1 x2 x3 (ix2 p q)
      = max ((∑ k : Fin 128, (x0 (ix2 p k) + x1 (ix2 p k)) * x2 (ix2 k q)) + x3 (ix2 (0 : Fin 1) q))
          (Ideal.ofBits .f32 0x00000000#32) := by
  unfold k0_pay1
  show max (matmul dot_S5000x128_S128x128_S5000x128_1_0_0_1_n_n none
        (truncf .bf16 (addf x0 (shapeCast S5000x128 x1 shapeCasts_S5000x128_S5000x128)) bitsLt_bf16_f32)
        (truncf .bf16 (shapeCast S128x128 x2 shapeCasts_S128x128_S128x128) bitsLt_bf16_f32)
        (constant S5000x128 .f32 0x00000000#32) (ix2 p q)
      + broadcastTo S5000x128 (shapeCast S1x128 x3 shapeCasts_S1x128_S1x128) broadcasts_S1x128_S5000x128 (ix2 p q))
      (Ideal.ofBits .f32 0x00000000#32) = _
  rw [matmul_block_apply, bias_bcast_apply, shapeCast_self, shapeCast_self]
  rfl

end Cert.KernelIdeal.Dense

end
-- ==== Proof.LibSegmentSum.lean ====
/-
  ROW SCATTER-ADD (what `jax.ops.segment_sum` of an `[E, D]` array of rows lowers to: a `stablehlo.scatter` with an `add` body,
  update_window_dims `[1]`, inserted_window_dims `[0]`, scatter_dims_to_operand_dims `[0]`, index_vector_dim `1`, the segment ids
  broadcast `[E] → [E, 1]`) read at an element, on the extended reals, for any extents `N`, `D`, `E`:

    * `resultIdx?_rows` — update element `(e, c)` lands on operand element `(r, q)` iff `ids[e]`, read signed, is `r` and `c = q`;
    * `scatterAdd_rows_apply` — the scatter-add at `(r, q)` is the operand there plus `∑ e, if ids[e] = r then upd[e, q] else 0`
      (an id that names no row drops its update);
    * `sum_rows_concat` — over two concatenated lists of ids and of update rows that sum is the sum of the two lists' sums:
      one segment sum of a concatenation is the sum of two segment sums. Only commutativity and associativity of `+` on the
      extended reals are used, so no finiteness is assumed of anything.
-/
import Idealize.ShloMosaic.PureOps.Ideal
import Idealize.ShloMosaic.Lib.ValueIdx
import Idealize.ShloMosaic.Lib.Pipeline.Value

noncomputable section

open scoped BigOperators

namespace Idealize.ShloMosaic.SegmentSum

open Idealize.ShloMosaic Idealize.ShloMosaic.ValueIdx

/-- The dimension numbers of a ROW scatter: update row `e` of an `[E, D]` array of updates goes to row `idx[e, 0]` of an
    `[N, D]` operand. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The start of update `(e, c)`'s window on the row axis is the segment id `idx[e, 0]`, read signed. -/
theorem start_row (idx : IVec ⟨2, ![E, 1]⟩ w) (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  refine congrArg (fun k => (idx k).toInt) ?_
  funext b; refine Fin.ext ?_
  match b with
  | ⟨0, _⟩ => rfl
  | ⟨1, _⟩ => rfl

/-- On the column axis, which the index map does not name, the window starts at `0`. -/
theorem start_col (idx : IVec ⟨2, ![E, 1]⟩ w) (j : (⟨2, ![E, D]⟩ : Shape).Idx) :
    (rowScatterDims N D E wf).start j idx 1 = 0 := by
  have h : ¬ (1 : Fin 2) ∈ (rowScatterDims N D E wf).scatterDimsToOperandDims :=
    (by decide : ¬ (1 : Fin 2) ∈ ([0] : List (Fin 2)))
  unfold ScatterDims.start
  rw [dif_neg h]

/-- The row axis is inserted: the window coordinate there is `0`. -/
theorem window_row (j : (⟨2, ![E, D]⟩ : Shape).Idx) :
    (rowScatterDims N D E wf).window j 0 = 0 := by
  have h : ¬ (0 : Fin 2) ∈ (rowScatterDims N D E wf).sKept :=
    (by decide : ¬ (0 : Fin 2) ∈ (List.finRange 2).filter (· ∉ ([0] : List (Fin 2))))
  unfold ScatterDims.window
  rw [dif_neg h]

/-- The column axis is the update's window axis: the window coordinate is the update's column. -/
theorem window_col (e : Fin E) (c : Fin D) :
    (rowScatterDims N D E wf).window (ix2 e c) 1 = c.val := by
  have h : (1 : Fin 2) ∈ (rowScatterDims N D E wf).sKept :=
    (by decide : (1 : Fin 2) ∈ (List.finRange 2).filter (· ∉ ([0] : List (Fin 2))))
  unfold ScatterDims.window
  rw [dif_pos h]
  rfl

/-- WHERE AN UPDATE LANDS: update element `(e, c)` lands on operand element `(r, q)` exactly when the start index
    `idx[e, 0]`, read signed, is the row `r` and the column is kept. -/
theorem resultIdx?_rows (idx : IVec ⟨2, ![E, 1]⟩ w) (e : Fin E) (c : Fin D) (r : Fin N) (q : Fin D) :
    (rowScatterDims N D E wf).resultIdx? (ix2 e c) idx = some (ix2 r q) ↔
      (idx (ix2 e (0 : Fin 1))).toInt = (r.val : Int) ∧ c = q := by
  have hs0 := start_row wf idx e c
  have hs1 := start_col wf idx (ix2 e c)
  have hw0 := window_row wf (ix2 e c)
  have hw1 := window_col wf e c
  unfold ScatterDims.resultIdx?
  constructor
  · intro h
    split at h
    · next hall =>
      have hf := Option.some.inj h
      have h0 : ((rowScatterDims N D E wf).start (ix2 e c) idx 0 + ((rowScatterDims N D E wf).window (ix2 e c) 0 : Int)).toNat = r.val :=
        congrArg (fun f => (f 0).val) hf
      have h1 : ((rowScatterDims N D E wf).start (ix2 e c) idx 1 + ((rowScatterDims N D E wf).window (ix2 e c) 1 : Int)).toNat = q.val :=
        congrArg (fun f => (f 1).val) hf
      have hp := (hall 0).1
      rw [hs0, hw0] at h0 hp
      rw [hs1, hw1] at h1
      exact ⟨by omega, Fin.ext (by omega)⟩
    · exact absurd h (by simp)
  · rintro ⟨ht, rfl⟩
    have hall : ∀ a : Fin 2, 0 ≤ (rowScatterDims N D E wf).start (ix2 e c) idx a + ((rowScatterDims N D E wf).window (ix2 e c) a : Int) ∧
        (rowScatterDims N D E wf).start (ix2 e c) idx a + ((rowScatterDims N D E wf).window (ix2 e c) a : Int) < (((⟨2, ![N, D]⟩ : Shape).size a : Nat) : Int) := by
      intro a
      match a with
      | ⟨0, _⟩ =>
        show 0 ≤ (rowScatterDims N D E wf).start (ix2 e c) idx 0 + ((rowScatterDims N D E wf).window (ix2 e c) 0 : Int) ∧
          (rowScatterDims N D E wf).start (ix2 e c) idx 0 + ((rowScatterDims N D E wf).window (ix2 e c) 0 : Int) < ((N : Nat) : Int)
        rw [hs0, hw0, ht]; have := r.isLt; constructor <;> omega
      | ⟨1, _⟩ =>
        show 0 ≤ (rowScatterDims N D E wf).start (ix2 e c) idx 1 + ((rowScatterDims N D E wf).window (ix2 e c) 1 : Int) ∧
          (rowScatterDims N D E wf).start (ix2 e c) idx 1 + ((rowScatterDims N D E wf).window (ix2 e c) 1 : Int) < ((D : Nat) : Int)
        rw [hs1, hw1]; have := c.isLt; constructor <;> omega
    rw [dif_pos hall]
    refine congrArg some (funext fun a => Fin.ext ?_)
    match a with
    | ⟨0, _⟩ =>
      show ((rowScatterDims N D E wf).start (ix2 e c) idx 0 + ((rowScatterDims N D E wf).window (ix2 e c) 0 : Int)).toNat = r.val
      rw [hs0, hw0, ht]; omega
    | ⟨1, _⟩ =>
      show ((rowScatterDims N D E wf).start (ix2 e c) idx 1 + ((rowScatterDims N D E wf).window (ix2 e c) 1 : Int)).toNat = c.val
      rw [hs1, hw1]; omega

/-- A ROW SCATTER-ADD READ AT AN ELEMENT, on the extended reals: the operand's element plus the sum, over the update rows
    `e` whose start index (read signed) is the element's row, of the update at `(e, q)`. An update whose start index names no
    row contributes to no element. -/
theorem scatterAdd_rows_apply {φ : FTy} (x : FVec Ideal ⟨2, ![N, D]⟩ φ) (idx : IVec ⟨2, ![E, 1]⟩ w)
    (upd : FVec Ideal ⟨2, ![E, D]⟩ φ) (r : Fin N) (q : Fin D) :
    Host.scatterAdd (F := Ideal) (rowScatterDims N D E wf) x idx upd (ix2 r q)
      = x (ix2 r q) + ∑ e : Fin E, if (idx (ix2 e (0 : Fin 1))).toInt = (r.val : Int) then upd (ix2 e q) else 0 := by
  show Ideal.hostScatterAdd (rowScatterDims N D E wf) x idx upd (ix2 r q) = _
  unfold Ideal.hostScatterAdd
  refine congrArg (x (ix2 r q) + ·) ?_
  rw [Finset.sum_filter, sum_idx2]
  refine Finset.sum_congr rfl fun e _ => ?_
  by_cases hP : (idx (ix2 e (0 : Fin 1))).toInt = (r.val : Int)
  · rw [if_pos hP, Finset.sum_eq_single q]
    · rw [if_pos ((resultIdx?_rows wf idx e q r q).2 ⟨hP, rfl⟩)]
    · intro c _ hc
      rw [if_neg]
      intro h
      exact hc ((resultIdx?_rows wf idx e c r q).1 h).2
    · intro h
      exact absurd (Finset.mem_univ q) h
  · rw [if_neg hP]
    refine Finset.sum_eq_zero fun c _ => ?_
    rw [if_neg]
    intro h
    exact hP ((resultIdx?_rows wf idx e c r q).1 h).1

end Rows

section Concat
variable {D E₁ E₂ w : Nat} {φ : FTy}

/-- Start indices `[E] → [E, 1]` (what `segment_sum` makes of a flat list of segment ids) read at row `e`. -/
theorem bcast_ids_apply {E : Nat} (ids : IVec ⟨1, ![E]⟩ w)
    (hb : (⟨1, ![E]⟩ : Shape).BroadcastsInDim ⟨2, ![E, 1]⟩ ![0]) (e : Fin E) :
    broadcastInDim ⟨2, ![E, 1]⟩ ![0] hb ids (ix2 e (0 : Fin 1)) = ids (ix1 e) :=
  broadcastInDim_apply _ hb ids (ix2 e (0 : Fin 1)) (ix1 e) (fun a => match a with
    | ⟨0, _⟩ => by
      show e.val = if E = 1 then 0 else e.val
      have := e.isLt
      split <;> omega)

/-- THE EDGE SUM OVER TWO CONCATENATED LISTS IS THE SUM OF THE TWO EDGE SUMS: for segment ids `d ++ s` and update rows
    `A ++ B` (both concatenated along the list axis), the updates of the rows whose id is `r` add up, column by column, to
    those among `(d, A)` plus those among `(s, B)` — a finite sum in a commutative monoid cut in two. -/
theorem sum_rows_concat (d : IVec ⟨1, ![E₁]⟩ w) (s : IVec ⟨1, ![E₂]⟩ w)
    (A : FVec Ideal ⟨2, ![E₁, D]⟩ φ) (B : FVec Ideal ⟨2, ![E₂, D]⟩ φ)
    (hI : Shape.Concatenates [⟨1, ![E₁]⟩, ⟨1, ![E₂]⟩] ⟨1, ![E₁ + E₂]⟩ 0)
    (hF : Shape.Concatenates [⟨2, ![E₁, D]⟩, ⟨2, ![E₂, D]⟩] ⟨2, ![E₁ + E₂, D]⟩ 0)
    (hb : (⟨1, ![E₁ + E₂]⟩ : Shape).BroadcastsInDim ⟨2, ![E₁ + E₂, 1]⟩ ![0])
    (hb₁ : (⟨1, ![E₁]⟩ : Shape).BroadcastsInDim ⟨2, ![E₁, 1]⟩ ![0])
    (hb₂ : (⟨1, ![E₂]⟩ : Shape).BroadcastsInDim ⟨2, ![E₂, 1]⟩ ![0])
    (r : Int) (q : Fin D) :
    (∑ e : Fin (E₁ + E₂),
        if (broadcastInDim ⟨2, ![E₁ + E₂, 1]⟩ ![0] hb
              (concatenate ⟨1, ![E₁ + E₂]⟩ 0 [⟨⟨1, ![E₁]⟩, d⟩, ⟨⟨1, ![E₂]⟩, s⟩] hI) (ix2 e (0 : Fin 1))).toInt = r
        then concatenate ⟨2, ![E₁ + E₂, D]⟩ 0 [⟨⟨2, ![E₁, D]⟩, A⟩, ⟨⟨2, ![E₂, D]⟩, B⟩] hF (ix2 e q) else 0)
      = (∑ e : Fin E₁, if (broadcastInDim ⟨2, ![E₁, 1]⟩ ![0] hb₁ d (ix2 e (0 : Fin 1))).toInt = r then A (ix2 e q) else 0)
        + ∑ e : Fin E₂, if (broadcastInDim ⟨2, ![E₂, 1]⟩ ![0] hb₂ s (ix2 e (0 : Fin 1))).toInt = r then B (ix2 e q) else 0 := by
  rw [Fin.sum_univ_add]
  refine congrArg₂ (· + ·) (Finset.sum_congr rfl fun e _ => ?_) (Finset.sum_congr rfl fun e _ => ?_)
  · have hi : concatenate ⟨1, ![E₁ + E₂]⟩ 0 [⟨⟨1, ![E₁]⟩, d⟩, ⟨⟨1, ![E₂]⟩, s⟩] hI (ix1 (Fin.castAdd E₂ e)) = d (ix1 e) :=
      concatenate_pair_apply_left 0 d s hI (ix1 (Fin.castAdd E₂ e)) rfl (ix1 e) (fun b => match b with | ⟨0, _⟩ => rfl)
    have hu : concatenate ⟨2, ![E₁ + E₂, D]⟩ 0 [⟨⟨2, ![E₁, D]⟩, A⟩, ⟨⟨2, ![E₂, D]⟩, B⟩] hF (ix2 (Fin.castAdd E₂ e) q) = A (ix2 e q) :=
      concatenate_pair_apply_left 0 A B hF (ix2 (Fin.castAdd E₂ e) q) rfl (ix2 e q)
        (fun b => match b with | ⟨0, _⟩ => rfl | ⟨1, _⟩ => rfl)
    rw [bcast_ids_apply _ hb, bcast_ids_apply _ hb₁, hi, hu]
  · have hi : concatenate ⟨1, ![E₁ + E₂]⟩ 0 [⟨⟨1, ![E₁]⟩, d⟩, ⟨⟨1, ![E₂]⟩, s⟩] hI (ix1 (Fin.natAdd E₁ e)) = s (ix1 e) :=
      concatenate_pair_apply_right 0 d s hI (ix1 (Fin.natAdd E₁ e)) rfl rfl (ix1 e)
        (fun b hb => match b with | ⟨0, _⟩ => absurd rfl hb)
        (by show e.val + E₁ = E₁ + e.val; omega)
    have hu : concatenate ⟨2, ![E₁ + E₂, D]⟩ 0 [⟨⟨2, ![E₁, D]⟩, A⟩, ⟨⟨2, ![E₂, D]⟩, B⟩] hF (ix2 (Fin.natAdd E₁ e) q) = B (ix2 e q) :=
      concatenate_pair_apply_right 0 A B hF (ix2 (Fin.natAdd E₁ e) q) rfl rfl (ix2 e q)
        (fun b hb => match b with | ⟨0, _⟩ => absurd rfl hb | ⟨1, _⟩ => rfl)
        (by show e.val + E₁ = E₁ + e.val; omega)
    rw [bcast_ids_apply _ hb, bcast_ids_apply _ hb₂, hi, hu]

end Concat

end Idealize.ShloMosaic.SegmentSum

end
-- ==== Proof.Spec.lean ====
/-
  THE LAYER AS ONE FUNCTION, and the one law that joins the two programs.

  Both programs compute, for node features `x : [100000, 128]`, edges `(src, dst)`, weights `W : [128, 128]` and bias `b : [128]`,

      out[n, j] = max (∑ k, P[n, k] · W[j, k] + b[j]) 0,      P = x + (messages summed into their end nodes),

  with the same per-edge messages `A` (towards `dst`) and `B` (towards `src`). They differ in how `P` is grouped: one program
  sums ALL `2 · 640000` messages in one segment sum over the concatenated ids `dst ++ src` and adds `x` once,
  `x + Σ(A ++ B)`; the other forms `(x + Σ A) + Σ B`. `dense` is the layer after `P`; `aggregate_concat` says the two
  groupings of `P` are one array — a finite sum cut in two and re-associated, which holds on the extended reals
  without any finiteness (no product is distributed over a sum).
-/
import Idealize.ShloMosaic.PureOps.Ideal
import Idealize.ShloMosaic.PureOps.Ideal.Laws
import Idealize.ShloMosaic.Lib.ValueIdx
import Idealize.ShloMosaic.Lib.Pipeline.Value
import proofs.«149796_j39195871543809_2_alg».proof.Proof.LibSegmentSum

noncomputable section

open scoped BigOperators

namespace Cert.GraphConv

open Idealize.ShloMosaic Idealize.ShloMosaic.ValueIdx Idealize.ShloMosaic.SegmentSum

/-- The dense half of the layer: row `n` of the aggregated features `P` against row `j` of the weights, plus the bias at
    `j`, clamped below at zero. -/
def dense (P : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => max ((∑ k : Fin 128, P (ix2 (⟨(i 0).val, idx2_lt0 i⟩ : Fin 100000) k) * W (ix2 (⟨(i 1).val, idx2_lt1 i⟩ : Fin 128) k))
      + b (ix1 (⟨(i 1).val, idx2_lt1 i⟩ : Fin 128))) (Ideal.ofBits .f32 0x00000000#32)

theorem dense_apply (P : FVec Ideal ⟨2, ![100000, 128]⟩ .f32) (W : FVec Ideal ⟨2, ![128, 128]⟩ .f32)
    (b : FVec Ideal ⟨1, ![128]⟩ .f32) (r : Fin 100000) (q : Fin 128) :
    dense P W b (ix2 r q)
      = max ((∑ k : Fin 128, P (ix2 r k) * W (ix2 q k)) + b (ix1 q)) (Ideal.ofBits .f32 0x00000000#32) := rfl

/-- ONE SEGMENT SUM OVER THE CONCATENATED EDGE LISTS, added to `x`, IS `x` PLUS THE TWO SEGMENT SUMS ONE AFTER THE OTHER
    (each scatter starting from an array of zeros): element by element both are `x` plus the messages of the edges whose id is
    the element's row, the left side's single sum over `2 · 640000` edges cut at `640000`. -/
theorem aggregate_concat
    (wfK : ScatterDims.WF ⟨2, ![100000, 128]⟩ ⟨2, ![1280000, 1]⟩ ⟨2, ![1280000, 128]⟩ [1] [0] [0] 1)
    (wfR : ScatterDims.WF ⟨2, ![100000, 128]⟩ ⟨2, ![640000, 1]⟩ ⟨2, ![640000, 128]⟩ [1] [0] [0] 1)
    (z z₁ z₂ : FVec Ideal ⟨2, ![100000, 128]⟩ .f32) (hz : ∀ i, z i = 0) (hz₁ : ∀ i, z₁ i = 0) (hz₂ : ∀ i, z₂ i = 0)
    (x : FVec Ideal ⟨2, ![100000, 128]⟩ .f32) (d s : IVec ⟨1, ![640000]⟩ 32) (A B : FVec Ideal ⟨2, ![640000, 128]⟩ .f32)
    (hI : Shape.Concatenates [⟨1, ![640000]⟩, ⟨1, ![640000]⟩] ⟨1, ![1280000]⟩ 0)
    (hF : Shape.Concatenates [⟨2, ![640000, 128]⟩, ⟨2, ![640000, 128]⟩] ⟨2, ![1280000, 128]⟩ 0)
    (hb : (⟨1, ![1280000]⟩ : Shape).BroadcastsInDim ⟨2, ![1280000, 1]⟩ ![0])
    (hb₁ : (⟨1, ![640000]⟩ : Shape).BroadcastsInDim ⟨2, ![640000, 1]⟩ ![0]) :
    addf x (Host.scatterAdd (rowScatterDims 100000 128 1280000 wfK) z
        (broadcastInDim ⟨2, ![1280000, 1]⟩ ![0] hb
          (concatenate ⟨1, ![1280000]⟩ 0 [⟨⟨1, ![640000]⟩, d⟩, ⟨⟨1, ![640000]⟩, s⟩] hI))
        (concatenate ⟨2, ![1280000, 128]⟩ 0 [⟨⟨2, ![640000, 128]⟩, A⟩, ⟨⟨2, ![640000, 128]⟩, B⟩] hF))
      = addf (addf x (Host.scatterAdd (rowScatterDims 100000 128 640000 wfR) z₁ (broadcastInDim ⟨2, ![640000, 1]⟩ ![0] hb₁ d) A))
          (Host.scatterAdd (rowScatterDims 100000 128 640000 wfR) z₂ (broadcastInDim ⟨2, ![640000, 1]⟩ ![0] hb₁ s) B) := by
  funext i
  obtain ⟨r, q, rfl⟩ : ∃ (r : Fin 100000) (q : Fin 128), i = ix2 r q := ⟨i 0, i 1, eq_ix2 i⟩
  rw [addf_apply, addf_apply, addf_apply, scatterAdd_rows_apply, scatterAdd_rows_apply, scatterAdd_rows_apply,
    hz, hz₁, hz₂, zero_add, zero_add, zero_add, add_assoc]
  exact congrArg (x (ix2 r q) + ·)
    (sum_rows_concat (E₁ := 640000) (E₂ := 640000) d s A B hI hF hb hb₁ hb₁ (r.val : Int) q)

end Cert.GraphConv

end
-- ==== Proof.KernelValue.lean ====
/-
  THE KERNEL'S RESULT ARRAY IS THE LAYER of `x + agg`, where `agg` is the array of aggregated messages the host operations
  leave before the call. Grid point `t` (of 20) reads rows `[5000 t, 5000 t + 5000)` of `x` and of `agg`, the whole transposed
  weights and the bias row, and writes back the same rows of the result; row `n` of the result is therefore written by point
  `n / 5000`, and depends on row `n` of `x + agg` only — the 20 blocks are restrictions of one whole-array function, and they
  tile the array.
-/
import proofs.«149796_j39195871543809_2_alg».proof.Proof.Gen.KernelIdeal.Value
import proofs.«149796_j39195871543809_2_alg».proof.Proof.KernelPayload
import proofs.«149796_j39195871543809_2_alg».proof.Proof.Spec
import Idealize.ShloMosaic.Lib.ValueLayout
import Idealize.ShloMosaic.Lib.StableHlo.Run

set_option maxRecDepth 16384

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps, decided over the 20 grid points: the two row-blocked inputs move with the output (block row
    `t`, block column `0`); the weights' and the bias's one block stays at the origin. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two windows a host operation writes before the call -/

/-- The weight window's array is the transposed weights. -/
theorem weights_entry (c : Dev nD) :
    (V m c main_v56 : S128x128.Idx → EReal)
      = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append,
    List.nil_append]
  after_results_simp <;> rfl

/-- The bias window's array is the bias as one row. -/
theorem bias_entry (c : Dev nD) :
    (V m c main_v57 : S1x128.Idx → EReal)
      = shapeCast S1x128 (m ((c : Thread nD τ).loc main_arg3)) shapeCasts_S128_S1x128 := by
  dsimp only [V]
  simp only [hostOps0, hostOps0_1, hostOps0_2, List.flatten_cons, List.flatten_nil, List.append_nil, List.cons_append,
    List.nil_append]
  after_results_simp <;> rfl

/-- The weight window's array at `(k, q)` is the weights at `(q, k)`. -/
theorem weights_entry_apply (c : Dev nD) (k q : Fin 128) :
    (V m c main_v56 : S128x128.Idx → EReal) (ix2 k q) = m ((c : Thread nD τ).loc main_arg2) (ix2 q k) := by
  rw [weights_entry]
  exact transpose_ix2_apply _ transposes_S128x128_S128x128_1_0 k q

/-- The bias window's array at `(0, q)` is the bias at `q`. -/
theorem bias_entry_apply (c : Dev nD) (q : Fin 128) :
    (V m c main_v57 : S1x128.Idx → EReal) (ix2 (0 : Fin 1) q) = m ((c : Thread nD τ).loc main_arg3) (ix1 q) := by
  rw [bias_entry]
  exact shapeCast_a_1a_apply _ shapeCasts_S128_S1x128 (0 : Fin 1) q

/-! ## The blocks a grid point reads, element by element

Stated for ANY contents of the four input arrays (variables, not the arrays the host operations leave): a block read is a
fact about the index maps alone. -/

section Blocks
variable (X AGG : S100000x128.Idx → EReal) (WT : S128x128.Idx → EReal) (B2 : S1x128.Idx → EReal)

/-- Row `p` of block `t` is row `5000 t + p` of the array. -/
theorem row_lt (t : Fin cfg0.N) (p : Fin 5000) : t.val * 5000 + p.val < 100000 := by
  have ht : t.val < 20 := lt_of_lt_of_eq t.isLt N_0
  have := p.isLt
  omega

/-- The node-feature block at point `t`, read at `(p, k)`, is the array at row `5000 t + p`. -/
theorem blk_x (t : Fin cfg0.N) (p : Fin 5000) (k : Fin 128) :
    ((cfg0.win 0).blk t).view.read (Elt Ideal) X (ix2 p k)
      = X (ix2 (⟨t.val * 5000 + p.val, row_lt t p⟩ : Fin 100000) k) := by
  obtain ⟨e00, e01, -⟩ := index_maps t
  have h : ((cfg0.win 0).blk t).view.emb (ix2 p k) = ix2 (⟨t.val * 5000 + p.val, row_lt t p⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  show X (((cfg0.win 0).blk t).view.emb (ix2 p k)) = _
  rw [h]

/-- The aggregated-message block at point `t`, read at `(p, k)`, is the array at row `5000 t + p`. -/
theorem blk_agg (t : Fin cfg0.N) (p : Fin 5000) (k : Fin 128) :
    ((cfg0.win 1).blk t).view.read (Elt Ideal) AGG (ix2 p k)
      = AGG (ix2 (⟨t.val * 5000 + p.val, row_lt t p⟩ : Fin 100000) k) := by
  obtain ⟨-, -, e10, e11, -⟩ := index_maps t
  have h : ((cfg0.win 1).blk t).view.emb (ix2 p k) = ix2 (⟨t.val * 5000 + p.val, row_lt t p⟩ : Fin 100000) k := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  show AGG (((cfg0.win 1).blk t).view.emb (ix2 p k)) = _
  rw [h]

/-- The weight block at any point is the whole array. -/
theorem blk_w (t : Fin cfg0.N) (k q : Fin 128) :
    ((cfg0.win 2).blk t).view.read (Elt Ideal) WT (ix2 k q) = WT (ix2 k q) := by
  obtain ⟨-, -, -, -, e20, e21, -⟩ := index_maps t
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show WT (((cfg0.win 2).blk t).view.emb (ix2 k q)) = _
  rw [h]

/-- The bias block at any point is the whole row. -/
theorem blk_b (t : Fin cfg0.N) (q : Fin 128) :
    ((cfg0.win 3).blk t).view.read (Elt Ideal) B2 (ix2 (0 : Fin 1) q) = B2 (ix2 (0 : Fin 1) q) := by
  obtain ⟨-, -, -, -, -, -, e30, e31, -⟩ := index_maps t
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  show B2 (((cfg0.win 3).blk t).view.emb (ix2 (0 : Fin 1) q)) = _
  rw [h]

/-- Element `(p, q)` of the output block at point `t` is element `(5000 t + p, q)` of the result array. -/
theorem out_row (t : Fin cfg0.N) (p : Fin 5000) (q : Fin 128) :
    ((cfg0.win 4).blk t).view.emb (ix2 p q) = ix2 (⟨t.val * 5000 + p.val, row_lt t p⟩ : Fin 100000) q := by
  obtain ⟨-, -, -, -, -, -, -, -, e40, e41⟩ := index_maps t
  funext a; apply Fin.ext
  match a with
  | ⟨0, _⟩ => show win0_4.index t (0 : Fin 2) * 5000 + 1 * p.val = t.val * 5000 + p.val; omega
  | ⟨1, _⟩ => show win0_4.index t (1 : Fin 2) * 128 + 1 * q.val = q.val; omega

/-- THE BODY'S RESULT AT POINT `t`, on the blocks of any four arrays of which the third is the transposed weights and the
    fourth the bias as a row, is block `t` of the layer of the sum of the first two. -/
theorem block_eq (W : S128x128.Idx → EReal) (b : S128.Idx → EReal)
    (hW : ∀ k q : Fin 128, WT (ix2 k q) = W (ix2 q k)) (hB : ∀ q : Fin 128, B2 (ix2 (0 : Fin 1) q) = b (ix1 q))
    (t : Fin cfg0.N) :
    (cfg0.win 4).cut (grid0.coords t)
        (out0_4 (((cfg0.win 0).blk t).view.read (Elt Ideal) X) (((cfg0.win 1).blk t).view.read (Elt Ideal) AGG)
          (((cfg0.win 2).blk t).view.read (Elt Ideal) WT) (((cfg0.win 3).blk t).view.read (Elt Ideal) B2))
      = ((cfg0.win 4).blk t).view.read (Elt Ideal) (Cert.GraphConv.dense (addf X AGG) W b) := by
  unfold out0_4
  rw [View.canon_unit_zero zeros2]
  simp only [View.ld_unit_zero (S := S5000x128) zeros2, View.ld_unit_zero (S := S128x128) zeros2,
    View.ld_unit_zero (S := S1x128) zeros2]
  funext y
  obtain ⟨p, q, rfl⟩ : ∃ (p : Fin 5000) (q : Fin 128), y = ix2 p q := ⟨y 0, y 1, eq_ix2 y⟩
  refine (payload_apply _ _ _ _ p q).trans ?_
  refine Eq.trans ?_ (congrArg (Cert.GraphConv.dense (addf X AGG) W b) (out_row t p q).symm)
  refine Eq.trans ?_ (Cert.GraphConv.dense_apply (addf X AGG) W b (⟨t.val * 5000 + p.val, row_lt t p⟩ : Fin 100000) q).symm
  exact congrArg₂ max
    (congrArg₂ (· + ·)
      (Finset.sum_congr rfl fun k _ =>
        congrArg₂ (· * ·) (congrArg₂ (· + ·) (blk_x X t p k) (blk_agg AGG t p k)) ((blk_w WT t k q).trans (hW k q)))
      ((blk_b B2 t q).trans (hB q)))
    rfl

end Blocks

/-! ## What a grid point writes back, and the array after the call -/

/-- WHAT POINT `t` WRITES BACK is block `t` of the layer of `x + agg` (both as the call finds them). -/
theorem flushed_eq (c : Dev nD) (t : Fin cfg0.N) :
    (dats m 0 c).flushed 4 t = ((cfg0.win 4).blk t).view.read (Elt Ideal)
      (Cert.GraphConv.dense (addf (V m c main_arg0) (V m c main_v55))
        (m ((c : Thread nD τ).loc main_arg2)) (m ((c : Thread nD τ).loc main_arg3))) :=
  (Value.flushed4 m c t).trans
    (block_eq (V m c main_arg0) (V m c main_v55) (V m c main_v56) (V m c main_v57)
      (m ((c : Thread nD τ).loc main_arg2)) (m ((c : Thread nD τ).loc main_arg3))
      (weights_entry_apply m c) (bias_entry_apply m c) t)

/-- An index of the result array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v58).slice (win0_4.rect t)).set ↔ _
  rw [View.set_slice_whole, Rect.mem_set_unit]
  exact Iff.rfl

/-- THE BLOCKS TILE THE ARRAY: row `n` is in the block of point `n / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by
    show (i 0).val / 5000 < grid0.N
    rw [N_0]; omega
  obtain ⟨-, -, -, -, -, -, -, -, e40, e41⟩ := index_maps ⟨(i 0).val / 5000, hN⟩
  have e40' : win0_4.index ⟨(i 0).val / 5000, hN⟩ (0 : Fin 2) = (i 0).val / 5000 := e40
  refine ⟨⟨(i 0).val / 5000, hN⟩, flush0_4 _, ?_⟩
  rw [mem_blk]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    omega

/-- THE RESULT ARRAY AFTER THE CALL is the layer of `x + agg`. -/
theorem final (c : Dev nD) :
    (dats m 0 c).arrAt 4 cfg0.N = Cert.GraphConv.dense (addf (V m c main_arg0) (V m c main_v55))
      (m ((c : Thread nD τ).loc main_arg2)) (m ((c : Thread nD τ).loc main_arg3)) :=
  (dats m 0 c).arrAt_eq_of_cover 4 _ (fun t _ => flushed_eq m c t) cover

/-- The kernel's run: the result buffer ends at the layer of `x + agg` — `x` the argument as launched, `agg` what the host
    operations before the call leave in the aggregated-message buffer —, the arguments unchanged. -/
theorem run : θ_run defs (onTc (τ := τ) (main (F := Ideal))) ⟨m, fun _ => 0, ρ⟩ fun r => ∀ c : Dev nD,
      r.2.mem ((c : Thread nD τ).loc main_v58)
        = Cert.GraphConv.dense (addf (m ((c : Thread nD τ).loc main_arg0)) (V m c main_v55))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans
      (congrArg (fun X => Cert.GraphConv.dense (addf X (V m c main_v55))
        (m ((c : Thread nD τ).loc main_arg2)) (m ((c : Thread nD τ).loc main_arg3))) (V_main_arg0 m c)), (h c).2⟩)
    (Value.run_blocks m ρ)

end Cert.KernelIdeal.Dense

end
-- ==== Proof.RefDense.lean ====
/-
  THE REFERENCE'S RESULT IS THE LAYER of its aggregated features: its last operations — the transposed weights, one
  `dot_general` over the 128 input features, the bias broadcast over the rows, the maximum with zero — read element by
  element are `GraphConv.dense` of whatever array enters the product.
-/
import proofs.«149796_j39195871543809_2_alg».proof.Proof.Gen.ReferenceIdeal
import Idealize.ShloMosaic.Lib.ValueIdx
import Idealize.ShloMosaic.Lib.Pipeline.Value
import Idealize.ShloMosaic.PureOps.Ideal.Laws
import proofs.«149796_j39195871543809_2_alg».proof.Proof.Spec

noncomputable section

open scoped BigOperators

namespace Cert.ReferenceIdeal.Dense

open Cert.ReferenceIdeal Cert.ReferenceIdeal.Gen Idealize.ShloMosaic Idealize.ShloMosaic.ValueIdx

/-- The host's product at `(r, q)`: row `r` of the left operand against column `q` of the right one. -/
theorem dot_apply (P : FVec Ideal S100000x128 .f32) (M : FVec Ideal S128x128 .f32) (r : Fin 100000) (q : Fin 128) :
    Host.dotGeneral dot_S100000x128_S128x128_S100000x128_1_0_0_1_n_n none P M (ix2 r q)
      = ∑ k : Fin 128, P (ix2 r k) * M (ix2 k q) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q)
      ((contrEquiv1 dot_S100000x128_S128x128_S100000x128_1_0_0_1_n_n 128 rfl rfl).symm k) = ix2 r k := funext fun a => Fin.ext (by
    match a with
    | ⟨0, _⟩ =>
      show (dot_S100000x128_S128x128_S100000x128_1_0_0_1_n_n.lhsIdx (ix2 r q) _ 0).val = r.val
      unfold DotDims.lhsIdx
      rw [dif_neg (show ¬(0 : Fin S100000x128.rank) ∈ dot_S100000x128_S128x128_S100000x128_1_0_0_1_n_n.lhsBatch by decide),
        dif_pos (show (0 : Fin S100000x128.rank) ∈ dot_S100000x128_S128x128_S100000x128_1_0_0_1_n_n.lhsNonContracting by decide)]
      rfl
    | ⟨1, _⟩ => exact (dot_S100000x128_S128x128_S100000x128_1_0_0_1_n_n.lhsIdx_val_of_single rfl (ix2 r q) _).trans hk)
  have er : dot_S100000x128_S128x128_S100000x128_1_0_0_1_n_n.rhsIdx (ix2 r q)
      ((contrEquiv1 dot_S100000x128_S128x128_S100000x128_1_0_0_1_n_n 128 rfl rfl).symm k) = ix2 k q := funext fun a => Fin.ext (by
    match a with
    | ⟨0, _⟩ => exact (dot_S100000x128_S128x128_S100000x128_1_0_0_1_n_n.rhsIdx_val_of_single rfl (ix2 r q) _).trans hk
    | ⟨1, _⟩ =>
      show (dot_S100000x128_S128x128_S100000x128_1_0_0_1_n_n.rhsIdx (ix2 r q) _ 1).val = q.val
      unfold DotDims.rhsIdx
      rw [dif_neg (show ¬(1 : Fin S128x128.rank) ∈ dot_S100000x128_S128x128_S100000x128_1_0_0_1_n_n.rhsBatch by decide),
        dif_pos (show (1 : Fin S128x128.rank) ∈ dot_S100000x128_S128x128_S100000x128_1_0_0_1_n_n.rhsNonContracting by decide)]
      rfl)
  rw [el, er]

/-- The transposed weights at `(k, q)` are the weights at `(q, k)`. -/
theorem transposed_apply (W : FVec Ideal S128x128 .f32) (k q : Fin 128) :
    transpose S128x128 [1, 0] W transposes_S128x128_S128x128_1_0 (ix2 k q) = W (ix2 q k) :=
  transpose_apply [1, 0] W transposes_S128x128_S128x128_1_0 (ix2 k q) (ix2 q k) (fun b => match b with
    | ⟨0, _⟩ => rfl
    | ⟨1, _⟩ => rfl)

/-- The bias `[128] → [1, 128] → [100000, 128]` at `(r, q)` is the bias at `q`. -/
theorem bias_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  rw [broadcastInDim_apply _ bcast_S1x128_S100000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ bcast_S128_S1x128_1 b (ix2 (0 : Fin 1) q) (ix1 q) (fun a => match a with
      | ⟨0, _⟩ => by show q.val = if (128 : Nat) = 1 then 0 else q.val; rw [if_neg (by decide)])

/-- The reference's operations after the aggregation, applied to any array `P`, are the layer of `P`. -/
theorem tail_eq (P : FVec Ideal S100000x128 .f32) (W : FVec Ideal S128x128 .f32) (b : FVec Ideal S128 .f32) :
    maximumf (addf (Host.dotGeneral dot_S100000x128_S128x128_S100000x128_1_0_0_1_n_n none P
            (transpose S128x128 [1, 0] W transposes_S128x128_S128x128_1_0))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.GraphConv.dense P W b := by
  funext i
  obtain ⟨r, q, rfl⟩ : ∃ (r : Fin 100000) (q : Fin 128), i = ix2 r q := ⟨i 0, i 1, eq_ix2 i⟩
  rw [Cert.GraphConv.dense_apply]
  show max (Host.dotGeneral dot_S100000x128_S128x128_S100000x128_1_0_0_1_n_n none P
        (transpose S128x128 [1, 0] W transposes_S128x128_S128x128_1_0) (ix2 r q)
      + broadcastInDim S100000x128 ![0, 1] bcast_S1x128_S100000x128_0_1 (broadcastInDim S1x128 ![1] bcast_S128_S1x128_1 b) (ix2 r q))
      (Ideal.ofBits .f32 0x00000000#32) = _
  rw [dot_apply, bias_apply]
  refine congrArg (fun s => max (s + b (ix1 q)) (Ideal.ofBits .f32 0x00000000#32)) (Finset.sum_congr rfl fun k _ => ?_)
  rw [transposed_apply]

end Cert.ReferenceIdeal.Dense

end
-- ==== Proof.Bridge.lean ====
/-
  THE TWO PROGRAMS' AGGREGATED FEATURES ARE ONE ARRAY. Up to the per-edge messages both programs run the same host
  operations on the same arguments. Then one scatters the concatenation of the two message arrays at the concatenated
  ids into an array of zeros and adds `x` to the result; the other scatters each message array at its own ids and adds
  the two results to `x` one after the other. `GraphConv.aggregate_concat` is the law; here its two sides are recognised in
  the two programs' terms.
-/
import proofs.«149796_j39195871543809_2_alg».proof.Proof.RefRunPatched
import proofs.«149796_j39195871543809_2_alg».proof.Proof.RefDense
import proofs.«149796_j39195871543809_2_alg».proof.Proof.Gen.KernelIdeal.Frame
import proofs.«149796_j39195871543809_2_alg».proof.Proof.Spec
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- An array of the f32 zero word is the extended real `0` everywhere. -/
theorem zeros_apply {s : Shape} (h : (⟨0, ![]⟩ : Shape).BroadcastsInDim s ![]) (i : s.Idx) :
    broadcastInDim s ![] h (constant (F := Ideal) ⟨0, ![]⟩ .f32 0x00000000#32) i = 0 :=
  Ideal.ofBits_zero_f32

/-- Equal ids and equal messages give equal segment sums over their concatenations (the two sides spelt as the two
    programs spell them). -/
theorem scatter_concat_congr
    {d d' : ScatterDims Cert.KernelIdeal.S100000x128 Cert.KernelIdeal.S1280000x1 Cert.KernelIdeal.S1280000x128} (hd : d = d')
    (Z : FVec Ideal Cert.KernelIdeal.S100000x128 .f32)
    (hb hb' : Cert.KernelIdeal.S1280000.BroadcastsInDim Cert.KernelIdeal.S1280000x1 ![0])
    (hI hI' : Shape.Concatenates [Cert.KernelIdeal.S640000, Cert.KernelIdeal.S640000] Cert.KernelIdeal.S1280000 0)
    (hF hF' : Shape.Concatenates [Cert.KernelIdeal.S640000x128, Cert.KernelIdeal.S640000x128] Cert.KernelIdeal.S1280000x128 0)
    {X3 X1 D S : IVec Cert.KernelIdeal.S640000 32} {X40 X50 A B : FVec Ideal Cert.KernelIdeal.S640000x128 .f32}
    (h3 : X3 = D) (h1 : X1 = S) (h40 : X40 = A) (h50 : X50 = B) :
    Host.scatterAdd d Z
        (broadcastInDim Cert.KernelIdeal.S1280000x1 ![0] hb
          (concatenate Cert.KernelIdeal.S1280000 0 [⟨Cert.KernelIdeal.S640000, X3⟩, ⟨Cert.KernelIdeal.S640000, X1⟩] hI))
        (concatenate Cert.KernelIdeal.S1280000x128 0 [⟨Cert.KernelIdeal.S640000x128, X40⟩, ⟨Cert.KernelIdeal.S640000x128, X50⟩] hF)
      = Host.scatterAdd d' Z
        (broadcastInDim Cert.KernelIdeal.S1280000x1 ![0] hb'
          (concatenate Cert.KernelIdeal.S1280000 0 [⟨Cert.KernelIdeal.S640000, D⟩, ⟨Cert.KernelIdeal.S640000, S⟩] hI'))
        (concatenate Cert.KernelIdeal.S1280000x128 0 [⟨Cert.KernelIdeal.S640000x128, A⟩, ⟨Cert.KernelIdeal.S640000x128, B⟩] hF') := by
  subst hd h3 h1 h40 h50
  rfl

/-- Closes `gather (where (deg > 0) (rsqrt deg) 0) ids = gather … ids` between the two programs: the gathered array — the
    inverse square root of a node's degree, zero at an isolated node — is in both the same three operations of the same
    degrees (one program states them inside an outlined function, whose values are re-typed by an identity), and the ids are the same. -/
local macro "gather_where" : tactic =>
  `(tactic| (refine congrArg₂ (Host.gather _) ?_ rfl
             refine (cast_eq _ _).trans ?_
             refine congr (congr (congrArg select ?_) ?_) rfl
             · exact (cast_eq _ _).trans rfl
             · exact (cast_eq _ _).trans rfl))

set_option maxHeartbeats 2000000 in
/-- The reference's result, from a memory that agrees with the kernel's on the arguments, is the layer of `x + agg` with
    `agg` the kernel program's aggregated-message buffer as its call finds it. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.ValueP.res_main_v64 (F := Ideal) m' c
      = Cert.GraphConv.dense
          (addf (m ((c.tc : Thread Cert.KernelIdeal.nD Cert.KernelIdeal.τ).loc Cert.KernelIdeal.main_arg0))
            (Cert.KernelIdeal.Gen.V m c Cert.KernelIdeal.main_v55))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  unfold Cert.ReferenceIdeal.ValueP.res_main_v64
  rw [h0, h1, h2, h3]
  refine (Cert.ReferenceIdeal.Dense.tail_eq _ _ _).trans ?_
  refine congrArg (fun P => Cert.GraphConv.dense P _ _) ?_
  refine Eq.trans (Cert.GraphConv.aggregate_concat
      (Cert.KernelIdeal.scatter_S100000x128_S1280000x1_S1280000x128_1_0_0_1).wf
      (Cert.ReferenceIdeal.scatter_S100000x128_S640000x1_S640000x128_1_0_0_1).wf
      (broadcastInDim Cert.KernelIdeal.S100000x128 ![] Cert.KernelIdeal.Gen.bcast_S_S100000x128
        (constant (F := Ideal) Cert.KernelIdeal.S_ .f32 0x00000000#32)) _ _
      (fun i => zeros_apply Cert.KernelIdeal.Gen.bcast_S_S100000x128 i) ?hz₁ ?hz₂
      _ _ _ _ _
      Cert.KernelIdeal.Gen.concatenates_S640000_S640000_S1280000_d0
      Cert.KernelIdeal.Gen.concatenates_S640000x128_S640000x128_S1280000x128_d0
      Cert.KernelIdeal.Gen.bcast_S1280000_S1280000x1_0
      Cert.ReferenceIdeal.Gen.bcast_S640000_S640000x1_0).symm ?_
  case hz₁ => exact fun i => zeros_apply Cert.ReferenceIdeal.Gen.bcast_S_S100000x128 i
  case hz₂ => exact fun i => zeros_apply Cert.ReferenceIdeal.Gen.bcast_S_S100000x128 i
  refine congrArg (addf _) ?_
  symm
  dsimp only [Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  refine scatter_concat_congr rfl _ _ _ _ _ _ _ ?_ ?_ ?_ ?_
  -- the ids of the two edge lists
  · after_results_simp <;> rfl
  · after_results_simp <;> rfl
  -- the messages towards the first and towards the second end node: (norm broadcast over the features) · (gathered features)
  · after_results_simp
    refine congrArg₂ mulf (congrArg (broadcastInDim _ _ _) (congrArg (broadcastInDim _ _ _) (congrArg₂ mulf ?_ ?_))) rfl
    · gather_where
    · gather_where
  · after_results_simp
    refine congrArg₂ mulf (congrArg (broadcastInDim _ _ _) (congrArg (broadcastInDim _ _ _) (congrArg₂ mulf ?_ ?_))) rfl
    · gather_where
    · gather_where

end Cert.Bridge

end
-- ==== Proof.lean ====
/-
  A graph-convolution layer, `out = relu ((x + agg) · Wᵀ + b)` over 100000 nodes and 128 features, where `agg` sums into each
  node the degree-normalised features of its neighbours along 640000 edges, in both directions.

  The kernel program builds the messages of both directions on the host, CONCATENATES them, sums them into their end nodes
  with ONE segment sum over the concatenated ids, and leaves to a blocked kernel (20 row blocks of 5000) the sum `x + agg`, the
  product with the transposed weights (operands rounded to bf16, the identity on extended reals), the bias and the clamp at
  zero. The reference sums the two directions with TWO segment sums, adds them to `x` one after the other, and multiplies the
  whole array at once. On the extended reals the two results are equal element by element:
    * one segment sum of a concatenation is the sum of the two segment sums, and `x + (s₁ + s₂) = (x + s₁) + s₂`
      (`GraphConv.aggregate_concat` over `SegmentSum.sum_rows_concat`: a finite sum cut in two and re-associated; nothing is
      distributed, so no finiteness of the inputs is used);
    * every row of the kernel's result is written by the one block that holds it, from that row of `x + agg` alone, so the 20
      blocks are restrictions of one whole-array function (`KernelIdeal.Dense.final`), the same function the reference's one
      product computes (`ReferenceIdeal.Dense.tail_eq`);
    * up to the messages the two programs apply the same host operations to the same arguments (`Bridge.result_eq`).
  The three frames are the programs' runs with the results dropped; the idealization rewrote nothing, so `preserves` is trivial.
-/
import proofs.«149796_j39195871543809_2_alg».proof.Defs
import proofs.«149796_j39195871543809_2_alg».proof.Proof.Gen.Kernel
import proofs.«149796_j39195871543809_2_alg».proof.Proof.Gen.Kernel.Skeleton
import proofs.«149796_j39195871543809_2_alg».proof.Proof.Gen.Kernel.Launch
import proofs.«149796_j39195871543809_2_alg».proof.Proof.Gen.Kernel.Points
import proofs.«149796_j39195871543809_2_alg».proof.Proof.Gen.Kernel.Frame
import proofs.«149796_j39195871543809_2_alg».proof.Proof.Gen.KernelIdeal
import proofs.«149796_j39195871543809_2_alg».proof.Proof.Gen.KernelIdeal.Skeleton
import proofs.«149796_j39195871543809_2_alg».proof.Proof.Gen.KernelIdeal.Launch
import proofs.«149796_j39195871543809_2_alg».proof.Proof.Gen.KernelIdeal.Points
import proofs.«149796_j39195871543809_2_alg».proof.Proof.Gen.KernelIdeal.Frame
import proofs.«149796_j39195871543809_2_alg».proof.Proof.Gen.ReferenceIdeal
import proofs.«149796_j39195871543809_2_alg».proof.Proof.Gen.KernelIdeal.Value
import proofs.«149796_j39195871543809_2_alg».proof.Proof.Gen.Pre_finite_inputs
import proofs.«149796_j39195871543809_2_alg».proof.Proof.RefRunPatched
import proofs.«149796_j39195871543809_2_alg».proof.Proof.KernelValue
import proofs.«149796_j39195871543809_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals both programs end with the layer of `x + agg` in their result buffers, `agg` the one array both
    groupings of the edge sums give. -/
theorem algebraic : Cert.algebraic_KernelIdeal_ReferenceIdeal := by
  intro m ρ m' ρ' _ hagree
  refine ⟨fun c => Cert.GraphConv.dense
      (addf (m ((c.tc : Thread Cert.KernelIdeal.nD Cert.KernelIdeal.τ).loc Cert.KernelIdeal.main_arg0))
        (Cert.KernelIdeal.Gen.V m c Cert.KernelIdeal.main_v55))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Dense.run m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m m' c (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
